-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_arg5 : FVec F S1024 .f32) (main_arg6 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S1024x4096 .f32) (main_arg1 : FVec F S4096x4096 .f32) (main_arg2 : FVec F S4096 .f32) (main_arg3 : FVec F S4096x1024 .f32) (main_arg4 : FVec F S4096x1024 .f32) (main_arg5 : FVec F S1024 .f32) (main_arg6 : FVec F S1024 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S1x1024 : Shape := ⟨2, ![1, 1024]⟩
abbrev S1x4096 : Shape := ⟨2, ![1, 4096]⟩
abbrev S256x512 : Shape := ⟨2, ![256, 512]⟩
abbrev S1x256 : Shape := ⟨2, ![1, 256]⟩
abbrev S1x128 : Shape := ⟨2, ![1, 128]⟩
abbrev S256x128 : Shape := ⟨2, ![256, 128]⟩
abbrev S256x256 : Shape := ⟨2, ![256, 256]⟩
abbrev S1x128x1 : Shape := ⟨3, ![1, 128, 1]⟩
abbrev S1x128x4 : Shape := ⟨3, ![1, 128, 4]⟩
abbrev S1x512 : Shape := ⟨2, ![1, 512]⟩
abbrev S256x128x1 : Shape := ⟨3, ![256, 128, 1]⟩
abbrev S256x128x4 : Shape := ⟨3, ![256, 128, 4]⟩
abbrev S512x256 : Shape := ⟨2, ![512, 256]⟩

abbrev nBuf : Space → Nat
  | .hbm => 11
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x4096, .f32⟩
  | .hbm, ⟨10, _⟩ => ⟨S1024x4096, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S1x256, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x256, .f32⟩
  | .local _ .vmem, ⟨15, _⟩ => ⟨S256x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v54 : BitVec 1 := Scalar.cmpi .eq arg2 c7_i32
  let v55 : BitVec 32 := Scalar.extui v54
  let c0_i32_20 : BitVec 32 := 0#32
  let v56 : BitVec 1 := Scalar.cmpi .ne v55 c0_i32_20
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]

class Facts₀ : Prop where
  shapeCasts_S1024_S1x1024 : S1024.ShapeCasts S1x1024
  shapeCasts_S4096_S1x4096 : S4096.ShapeCasts S1x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x128x1 : S1x128.ShapeCasts S1x128x1
  broadcasts_S1x128x1_S1x128x4 : S1x128x1.Broadcasts S1x128x4
  shapeCasts_S1x128x4_S1x512 : S1x128x4.ShapeCasts S1x512
  inb_S256x128_S256x128_0_0 : ∀ a, (![0, 0] : Fin 2 → Nat) a + S256x128.size a ≤ S256x128.size a
  h_S256x128 : 0 < S256x128.numel
  shapeCasts_S256x128_S256x128x1 : S256x128.ShapeCasts S256x128x1
  broadcasts_S256x128x1_S256x128x4 : S256x128x1.Broadcasts S256x128x4
  shapeCasts_S256x128x4_S256x512 : S256x128x4.ShapeCasts S256x512
  broadcasts_S1x512_S256x512 : S1x512.Broadcasts S256x512
  bitsLt_bf16_f32 : FTy.bits .bf16 < FTy.bits .f32
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x4096.size a
  hwx0_0 : ∀ i : grid0.Coords, EltTy.bits .f32 = 32 ∨ (Rect.block (s := S1024x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x4096.size a
  hwx0_1 : ∀ i : grid0.Coords, EltTy.bits .f32 = 32 ∨ (Rect.block (s := S4096x4096) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .f32 = 32 ∨ (Rect.block (s := S1x1024) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .f32 = 32 ∨ (Rect.block (s := S1x1024) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x1024.size a
  hwx0_5 : ∀ i : grid0.Coords, EltTy.bits .f32 = 32 ∨ (Rect.block (s := S4096x1024) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S4096x1024.size a
  hwx0_6 : ∀ i : grid0.Coords, EltTy.bits .f32 = 32 ∨ (Rect.block (s := S4096x1024) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S1024x4096.size a
  hwx0_7 : ∀ i : grid0.Coords, EltTy.bits .f32 = 32 ∨ (Rect.block (s := S1024x4096) S256x256.size (cc0_transform_7 i) (hinb0_7 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S1024x1024x4 : Shape := ⟨3, ![1024, 1024, 4]⟩
abbrev S1x1024x1 : Shape := ⟨3, ![1, 1024, 1]⟩
abbrev S_ : Shape := ⟨0, ![]⟩
abbrev S4096x1024x4 : Shape := ⟨3, ![4096, 1024, 4]⟩
abbrev S4096x1024x1 : Shape := ⟨3, ![4096, 1024, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S1024x1024x4, .f32⟩
  | .hbm, ⟨8, _⟩ => ⟨S1x1024x1, .f32⟩
  | .hbm, ⟨9, _⟩ => ⟨S1x1024x1, .f32⟩
  | .hbm, ⟨10, _⟩ => ⟨S1024x1024x4, .f32⟩
  | .hbm, ⟨11, _⟩ => ⟨S1024x1024x4, .f32⟩
  | .hbm, ⟨12, _⟩ => ⟨S1024x1024x4, .f32⟩
  | .hbm, ⟨13, _⟩ => ⟨S1024x1024x4, .f32⟩
  | .hbm, ⟨14, _⟩ => ⟨S1024x1024x4, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x1024x4, .f32⟩
  | .hbm, ⟨19, _⟩ => ⟨S1024x1024x4, .f32⟩
  | .hbm, ⟨20, _⟩ => ⟨S_, .f32⟩
  | .hbm, ⟨21, _⟩ => ⟨S1024x1024x4, .f32⟩
  | .hbm, ⟨22, _⟩ => ⟨S1024x1024x4, .f32⟩
  | .hbm, ⟨23, _⟩ => ⟨S1024x1024x4, .f32⟩
  | .hbm, ⟨24, _⟩ => ⟨S1024x1024x4, .f32⟩
  | .hbm, ⟨25, _⟩ => ⟨S1024x1024x4, .f32⟩
  | .hbm, ⟨26, _⟩ => ⟨S1024x1024x4, .f32⟩
  | .hbm, ⟨27, _⟩ => ⟨S1024x4096, .f32⟩
  | .hbm, ⟨28, _⟩ => ⟨S4096x1024x4, .f32⟩
  | .hbm, ⟨29, _⟩ => ⟨S4096x1024x1, .f32⟩
  | .hbm, ⟨30, _⟩ => ⟨S4096x1024x1, .f32⟩
  | .hbm, ⟨31, _⟩ => ⟨S4096x1024x4, .f32⟩
  | .hbm, ⟨32, _⟩ => ⟨S4096x1024x4, .f32⟩
  | .hbm, ⟨33, _⟩ => ⟨S4096x1024x4, .f32⟩
  | .hbm, ⟨34, _⟩ => ⟨S4096x1024x4, .f32⟩
  | .hbm, ⟨35, _⟩ => ⟨S4096x1024x4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x1024x4, .f32⟩
  | .hbm, ⟨40, _⟩ => ⟨S4096x1024x4, .f32⟩
  | .hbm, ⟨41, _⟩ => ⟨S_, .f32⟩
  | .hbm, ⟨42, _⟩ => ⟨S4096x1024x4, .f32⟩
  | .hbm, ⟨43, _⟩ => ⟨S4096x1024x4, .f32⟩
  | .hbm, ⟨44, _⟩ => ⟨S4096x1024x4, .f32⟩
  | .hbm, ⟨45, _⟩ => ⟨S4096x1024x4, .f32⟩
  | .hbm, ⟨46, _⟩ => ⟨S4096x1024x4, .f32⟩
  | .hbm, ⟨47, _⟩ => ⟨S4096x1024x4, .f32⟩
  | .hbm, ⟨48, _⟩ => ⟨S4096x4096, .f32⟩
  | .hbm, ⟨49, _⟩ => ⟨S4096x4096, .f32⟩
  | .hbm, ⟨50, _⟩ => ⟨S1024x4096, .f32⟩
  | .hbm, ⟨51, _⟩ => ⟨S1x4096, .f32⟩
  | .hbm, ⟨52, _⟩ => ⟨S1024x4096, .f32⟩
  | .hbm, ⟨53, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_cst_2 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  shapeCasts_S1024x4096_S1024x1024x4 : S1024x4096.ShapeCasts S1024x1024x4
  bcast_S1024_S1x1024x1_1 : S1024.BroadcastsInDim S1x1024x1 (![1] : Fin 1 → Fin S1x1024x1.rank)
  bcast_S1x1024x1_S1024x1024x4_0_1_2 : S1x1024x1.BroadcastsInDim S1024x1024x4 (![0, 1, 2] : Fin 3 → Fin S1024x1024x4.rank)
  bcast_S_S1024x1024x4 : S_.BroadcastsInDim S1024x1024x4 (![] : Fin 0 → Fin S1024x1024x4.rank)
  shapeCasts_S1024x1024x4_S1024x4096 : S1024x1024x4.ShapeCasts S1024x4096
  shapeCasts_S4096x4096_S4096x1024x4 : S4096x4096.ShapeCasts S4096x1024x4
  bcast_S4096x1024_S4096x1024x1_0_1 : S4096x1024.BroadcastsInDim S4096x1024x1 (![0, 1] : Fin 2 → Fin S4096x1024x1.rank)
  bcast_S4096x1024x1_S4096x1024x4_0_1_2 : S4096x1024x1.BroadcastsInDim S4096x1024x4 (![0, 1, 2] : Fin 3 → Fin S4096x1024x4.rank)
  bcast_S_S4096x1024x4 : S_.BroadcastsInDim S4096x1024x4 (![] : Fin 0 → Fin S4096x1024x4.rank)
  shapeCasts_S4096x1024x4_S4096x4096 : S4096x1024x4.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Blocks.lean ====
/-
  The blocks the grid points read, as entries of the argument arrays.

  The grid has 4 × 16 × 8 points, walked with the last axis fastest: point t has i = t / 128 (a block of 256 rows of
  x and of the output), j = t / 8 mod 16 (a block of 256 rows of w, of its scales and zero points, and of 256
  output columns and bias entries) and k = t mod 8 (a block of 512 columns of x and w, 128 blocks of four).  Each
  block read at a point is the corresponding rectangle of its array; the bias, x's scales and x's zero points reach
  the kernel reshaped from a vector to a one-row matrix, which reads the vector's entry at the column.
-/
import proofs.«181118_j13520557047882_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ)

/-- The grid has 512 points. -/
theorem tlt (t : Fin cfg0.N) : t.val < 512 := lt_of_lt_of_eq t.isLt (show cfg0.N = 512 from N_0)

/-- Row `p` of point `t`'s x block (and of its output block) in the whole array. -/
def rowX (t : Fin cfg0.N) (p : Fin 256) : Fin 1024 :=
  ⟨256 * (t.val / 128) + p.val, by have := tlt t; have := p.isLt; omega⟩
/-- Row `q` of point `t`'s w block (the output's column `q`) in the whole array. -/
def rowW (t : Fin cfg0.N) (q : Fin 256) : Fin 4096 :=
  ⟨256 * (t.val / 8 % 16) + q.val, by have := q.isLt; omega⟩
/-- Column `cc` of point `t`'s x and w blocks in the whole arrays. -/
def colK (t : Fin cfg0.N) (cc : Fin 512) : Fin 4096 :=
  ⟨512 * (t.val % 8) + cc.val, by have := cc.isLt; omega⟩
/-- Column `s` of point `t`'s scale and zero-point blocks in the whole arrays. -/
def colS (t : Fin cfg0.N) (s : Fin 128) : Fin 1024 :=
  ⟨128 * (t.val % 8) + s.val, by have := s.isLt; omega⟩

/-- The printed index maps in closed form, decided over the grid. -/
theorem idx_facts : ∀ t : Fin cfg0.N,
    win0_0.index t (0 : Fin 2) = t.val / 128 ∧ win0_0.index t (1 : Fin 2) = t.val % 8
    ∧ win0_1.index t (0 : Fin 2) = t.val / 8 % 16 ∧ win0_1.index t (1 : Fin 2) = t.val % 8
    ∧ win0_2.index t (0 : Fin 2) = 0 ∧ win0_2.index t (1 : Fin 2) = t.val / 8 % 16
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = t.val / 8 % 16 ∧ win0_5.index t (1 : Fin 2) = t.val % 8
    ∧ win0_6.index t (0 : Fin 2) = t.val / 8 % 16 ∧ win0_6.index t (1 : Fin 2) = t.val % 8
    ∧ win0_7.index t (0 : Fin 2) = t.val / 128 ∧ win0_7.index t (1 : Fin 2) = t.val / 8 % 16 :=
  (by decide +kernel : ∀ t : Fin grid0.N, _)

/-- The x block at point `t`. -/
theorem blk_x (c : Dev nD) (t : Fin cfg0.N) (p : Fin 256) (cc : Fin 512) :
    (iblk m c 0 t : Vec F S256x512 .f32) (ix2 p cc)
      = m ((c : Thread nD τ).loc main_arg0) (ix2 (rowX t p) (colK t cc)) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = 256 * (t.val / 128) + p.val; rw [e0]; omega
  | ⟨1, _⟩ => show win0_0.index t (1 : Fin 2) * 512 + 1 * cc.val = 512 * (t.val % 8) + cc.val; rw [e1]; omega

/-- The w block at point `t`. -/
theorem blk_w (c : Dev nD) (t : Fin cfg0.N) (q : Fin 256) (cc : Fin 512) :
    (iblk m c 1 t : Vec F S256x512 .f32) (ix2 q cc)
      = m ((c : Thread nD τ).loc main_arg1) (ix2 (rowW t q) (colK t cc)) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = 256 * (t.val / 8 % 16) + q.val; rw [e0]; omega
  | ⟨1, _⟩ => show win0_1.index t (1 : Fin 2) * 512 + 1 * cc.val = 512 * (t.val % 8) + cc.val; rw [e1]; omega

/-- The w scales' block at point `t`. -/
theorem blk_ws (c : Dev nD) (t : Fin cfg0.N) (q : Fin 256) (s : Fin 128) :
    (iblk m c 5 t : Vec F S256x128 .f32) (ix2 q s)
      = m ((c : Thread nD τ).loc main_arg3) (ix2 (rowW t q) (colS t s)) := by
  obtain ⟨-, -, -, -, -, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_5.index t (0 : Fin 2) * 256 + 1 * q.val = 256 * (t.val / 8 % 16) + q.val; rw [e0]; omega
  | ⟨1, _⟩ => show win0_5.index t (1 : Fin 2) * 128 + 1 * s.val = 128 * (t.val % 8) + s.val; rw [e1]; omega

/-- The w zero points' block at point `t`. -/
theorem blk_wz (c : Dev nD) (t : Fin cfg0.N) (q : Fin 256) (s : Fin 128) :
    (iblk m c 6 t : Vec F S256x128 .f32) (ix2 q s)
      = m ((c : Thread nD τ).loc main_arg4) (ix2 (rowW t q) (colS t s)) := by
  obtain ⟨-, -, -, -, -, -, -, -, -, -, -, -, e0, e1, -⟩ := idx_facts t
  unfold iblk
  rw [View.read_apply]
  show V m c main_arg4 _ = _
  rw [V_main_arg4]
  refine congrArg _ (funext fun a => Fin.ext ?_)
  match a with
  | ⟨0, _⟩ => show win0_6.index t (0 : Fin 2) * 256 + 1 * q.val = 256 * (t.val / 8 % 16) + q.val; rw [e0]; omega
  | ⟨1, _⟩ => show win0_6.index t (1 : Fin 2) * 128 + 1 * s.val = 128 * (t.val % 8) + s.val; rw [e1]; omega

/-- The region finds the bias as the one-row matrix of the bias vector, -/
theorem V_bias (c : Dev nD) : (V m c main_v2 : S1x4096.Idx → Elt F .f32)
    = shapeCast S1x4096 (m ((c : Thread nD τ).loc main_arg2)) Facts₀.shapeCasts_S4096_S1x4096 := by
  dsimp only [Gen.V, Gen.hostOps0]; after_results; rfl

/-- x's scales likewise, -/
theorem V_ascale (c : Dev nD) : (V m c main_v0 : S1x1024.Idx → Elt F .f32)
    = shapeCast S1x1024 (m ((c : Thread nD τ).loc main_arg5)) Facts₀.shapeCasts_S1024_S1x1024 := by
  dsimp only [Gen.V, Gen.hostOps0]; after_results; rfl

/-- and x's zero points. -/
theorem V_azero (c : Dev nD) : (V m c main_v1 : S1x1024.Idx → Elt F .f32)
    = shapeCast S1x1024 (m ((c : Thread nD τ).loc main_arg6)) Facts₀.shapeCasts_S1024_S1x1024 := by
  dsimp only [Gen.V, Gen.hostOps0]; after_results; rfl

/-- The bias piece at point `t`. -/
theorem blk_bias (c : Dev nD) (t : Fin cfg0.N) (q : Fin 256) :
    (iblk m c 2 t : Vec F S1x256 .f32) (ix2 (0 : Fin 1) q)
      = m ((c : Thread nD τ).loc main_arg2) (ix1 (rowW t q)) := by
  obtain ⟨-, -, -, -, e0, e1, -⟩ := idx_facts t
  unfold iblk
  rw [View.read_apply]
  show V m c main_v2 _ = _
  rw [V_bias]
  refine Eq.trans (congrArg _ (funext fun a => Fin.ext ?_)) (shapeCast_a_1a_apply _ _ (0 : Fin 1) (rowW t q))
  match a with
  | ⟨0, _⟩ => show win0_2.index t (0 : Fin 2) * 1 + 1 * 0 = 0; rw [e0]
  | ⟨1, _⟩ => show win0_2.index t (1 : Fin 2) * 256 + 1 * q.val = 256 * (t.val / 8 % 16) + q.val; rw [e1]; omega

/-- x's scales' block at point `t`. -/
theorem blk_as (c : Dev nD) (t : Fin cfg0.N) (s : Fin 128) :
    (iblk m c 3 t : Vec F S1x128 .f32) (ix2 (0 : Fin 1) s)
      = m ((c : Thread nD τ).loc main_arg5) (ix1 (colS t s)) := by
  obtain ⟨-, -, -, -, -, -, e0, e1, -⟩ := idx_facts t
  unfold iblk
  rw [View.read_apply]
  show V m c main_v0 _ = _
  rw [V_ascale]
  refine Eq.trans (congrArg _ (funext fun a => Fin.ext ?_)) (shapeCast_a_1a_apply _ _ (0 : Fin 1) (colS t s))
  match a with
  | ⟨0, _⟩ => show win0_3.index t (0 : Fin 2) * 1 + 1 * 0 = 0; rw [e0]
  | ⟨1, _⟩ => show win0_3.index t (1 : Fin 2) * 128 + 1 * s.val = 128 * (t.val % 8) + s.val; rw [e1]; omega

/-- x's zero points' block at point `t`. -/
theorem blk_az (c : Dev nD) (t : Fin cfg0.N) (s : Fin 128) :
    (iblk m c 4 t : Vec F S1x128 .f32) (ix2 (0 : Fin 1) s)
      = m ((c : Thread nD τ).loc main_arg6) (ix1 (colS t s)) := by
  obtain ⟨-, -, -, -, -, -, -, -, e0, e1, -⟩ := idx_facts t
  unfold iblk
  rw [View.read_apply]
  show V m c main_v1 _ = _
  rw [V_azero]
  refine Eq.trans (congrArg _ (funext fun a => Fin.ext ?_)) (shapeCast_a_1a_apply _ _ (0 : Fin 1) (colS t s))
  match a with
  | ⟨0, _⟩ => show win0_4.index t (0 : Fin 2) * 1 + 1 * 0 = 0; rw [e0]
  | ⟨1, _⟩ => show win0_4.index t (1 : Fin 2) * 128 + 1 * s.val = 128 * (t.val % 8) + s.val; rw [e1]; omega

end Cert.KernelIdeal.Blocks

end
-- ==== Proof.Pieces.lean ====
/-
  What one grid point's body leaves in the accumulator and in the output block, as values.

  Every load of the body reads a whole staging buffer and every store covers a whole buffer, so what a buffer
  holds afterwards is its last store's value computed from the loaded blocks.  At the first of a run of eight points
  (k = 0) the accumulator is set to zero, read back, and the step is added; at the other points the step is added
  to what the point before left; at the last point (k = 7) the output block is the accumulator just stored plus
  the bias row.  `step` is that one function of the blocks and the accumulator.
-/
import proofs.«181118_j13520557047882_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- One accumulation step: from the x block `x0`, the w block `x1`, x's scales and zero points `x3`, `x4`, w's `x5`,
    `x6` and the accumulator `acc`, the accumulator plus the product of the quantized blocks. -/
abbrev step (x0 x1 : Vec F S256x512 .f32) (x3 x4 : Vec F S1x128 .f32) (x5 x6 : Vec F S256x128 .f32)
    (acc : Vec F S256x256 .f32) : Vec F S256x256 .f32 :=
  k0_pay1 (k0_pay4 x5) (k0_pay5 x6) (k0_pay6 x0 x3 x4) (k0_pay7 x1 x5 x6) (FloatOps.ofBits .f32 0x00000000#32) acc

/-- At k = 0 the accumulator ends at the step over the zero block. -/
theorem sout_A (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i) (x0 : Vec F S256x512 .f32) (x1 : Vec F S256x512 .f32) (x2 : Vec F S1x256 .f32) (x3 : Vec F S1x128 .f32) (x4 : Vec F S1x128 .f32) (x5 : Vec F S256x128 .f32) (x6 : Vec F S256x128 .f32) :
    sout0_A_0 c i arg3 harg3 arg4 harg4 arg5 harg5 arg6 harg6 arg7 harg7 arg8 harg8 arg9 harg9 arg10 harg10 arg11 harg11 hc0 hc1 x0 x1 x2 x3 x4 x5 x6 = step x0 x1 x3 x4 x5 x6 k0_pay3 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S256x256) hz, View.readCov_unit_zero (S := S256x256) _ hz]
  simp only [View.readAt_eq_ld, harg3.read_unread, harg4.read_unread, harg5.read_unread, harg6.read_unread, harg7.read_unread, harg8.read_unread, harg9.read_unread, harg11.read_unread, View.ld_unit_zero (S := S256x512) hz, View.ld_unit_zero (S := S1x128) hz, View.ld_unit_zero (S := S256x128) hz, View.ld_unit_zero (S := S256x256) hz, View.ld_unit_zero (S := S1x256) hz]

/-- At 0 < k < 7 the accumulator ends at the step over what the point before left. -/
theorem sout_B (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i) (x0 : Vec F S256x512 .f32) (x1 : Vec F S256x512 .f32) (x2 : Vec F S1x256 .f32) (x3 : Vec F S1x128 .f32) (x4 : Vec F S1x128 .f32) (x5 : Vec F S256x128 .f32) (x6 : Vec F S256x128 .f32) (xs0 : Vec F S256x256 .f32) :
    sout0_B_0 c i arg3 harg3 arg4 harg4 arg5 harg5 arg6 harg6 arg7 harg7 arg8 harg8 arg9 harg9 arg10 harg10 arg11 harg11 hc0 hc1 x0 x1 x2 x3 x4 x5 x6 xs0 = step x0 x1 x3 x4 x5 x6 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, View.ld_unit_zero (S := S256x512) hz, View.ld_unit_zero (S := S1x128) hz, View.ld_unit_zero (S := S256x128) hz, View.ld_unit_zero (S := S256x256) hz, View.ld_unit_zero (S := S1x256) hz]

/-- At k = 7 the accumulator ends at the step over what the point before left, -/
theorem sout_C (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S256x512 .f32) (x1 : Vec F S256x512 .f32) (x2 : Vec F S1x256 .f32) (x3 : Vec F S1x128 .f32) (x4 : Vec F S1x128 .f32) (x5 : Vec F S256x128 .f32) (x6 : Vec F S256x128 .f32) (xs0 : Vec F S256x256 .f32) :
    sout0_C_0 c i arg3 harg3 arg4 harg4 arg5 harg5 arg6 harg6 arg7 harg7 arg8 harg8 arg9 harg9 arg10 harg10 arg11 harg11 hc0 hc1 x0 x1 x2 x3 x4 x5 x6 xs0 = step x0 x1 x3 x4 x5 x6 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, View.ld_unit_zero (S := S256x512) hz, View.ld_unit_zero (S := S1x128) hz, View.ld_unit_zero (S := S256x128) hz, View.ld_unit_zero (S := S256x256) hz, View.ld_unit_zero (S := S1x256) hz]

/-- and the output block at that accumulator plus the bias row `x2`. -/
theorem out_C (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S256x512 .f32) (x1 : Vec F S256x512 .f32) (x2 : Vec F S1x256 .f32) (x3 : Vec F S1x128 .f32) (x4 : Vec F S1x128 .f32) (x5 : Vec F S256x128 .f32) (x6 : Vec F S256x128 .f32) (xs0 : Vec F S256x256 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay2 (step x0 x1 x3 x4 x5 x6 xs0) x2 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz, View.readCov_unit_zero (S := S256x256) _ hz]
  simp only [View.readAt_eq_ld, harg3.read_unread, harg4.read_unread, harg5.read_unread, harg6.read_unread, harg7.read_unread, harg8.read_unread, harg9.read_unread, harg11.read_unread, View.ld_unit_zero (S := S256x512) hz, View.ld_unit_zero (S := S1x128) hz, View.ld_unit_zero (S := S256x128) hz, View.ld_unit_zero (S := S256x256) hz, View.ld_unit_zero (S := S1x256) hz]

end Cert.KernelIdeal.Pieces

end
-- ==== Proof.LibSegmentSum.lean ====
/-
  Sums over an initial segment of `Fin N`, for accumulations that proceed block by block.

  `segSum g n` is the sum of `g` over the indices below `n`.  The empty segment sums to zero (`segSum_zero`), the
  whole segment is the full sum (`segSum_all`), and a segment extended by a block of `W` indices is the segment's sum
  plus the block's (`segSum_add`): an accumulator that starts at zero and adds one block's sum per step holds, after
  the step that adds the block starting at `a`, the segment sum up to `a + W`, and after the last block the full sum.
  Stated in any commutative additive monoid, so it applies to the extended reals, which are not a group.
-/
import Mathlib.Algebra.BigOperators.Fin

open scoped BigOperators

namespace SegmentSum

variable {M : Type*} [AddCommMonoid M] {N : ℕ}

/-- The sum of `g` over the indices of `Fin N` below `n` (indices from `N` on contribute nothing). -/
def segSum (g : Fin N → M) (n : ℕ) : M :=
  ∑ r ∈ Finset.range n, if h : r < N then g ⟨r, h⟩ else 0

/-- The empty segment sums to zero. -/
theorem segSum_zero (g : Fin N → M) : segSum g 0 = 0 := by
  unfold segSum; rw [Finset.range_zero, Finset.sum_empty]

/-- The whole segment is the full sum. -/
theorem segSum_all (g : Fin N → M) : segSum g N = ∑ r : Fin N, g r := by
  unfold segSum
  rw [Finset.sum_range]
  exact Finset.sum_congr rfl fun i _ => by rw [dif_pos i.isLt]

/-- A segment extended by a block of `W` indices: the segment's sum plus the block's. -/
theorem segSum_add (g : Fin N → M) (a W : ℕ) (h : a + W ≤ N) :
    segSum g (a + W) = segSum g a + ∑ p : Fin W, g ⟨a + p.val, by have := p.isLt; omega⟩ := by
  unfold segSum
  rw [Finset.sum_range_add]
  refine congrArg _ ?_
  rw [Finset.sum_range]
  exact Finset.sum_congr rfl fun p _ => by rw [dif_pos (by have := p.isLt; omega)]

end SegmentSum
-- ==== Proof.FakeQuant.lean ====
/-
  The quantized linear layer on the extended reals.

  Fake quantization of one entry `v` with its block's scale `s` and zero point `z`: the entry is divided by the scale,
  shifted by the zero point, rounded to the nearest integer (ties to even), clamped to [0, 255], shifted back and
  rescaled: `fq v s z = (min 255 (max 0 (round (v / s + z))) - z) · s`.

  The layer: the activations x [1024, 4096] and the weights w [4096, 4096] are fake-quantized in blocks of four
  consecutive columns — column c lies in block c / 4; the activations' scales and zero points are per block (shared
  by all rows), the weights' per row and block —, and the output entry (a, b) is the sum over the 4096 columns c of
  the quantized x(a, c) times the quantized w(b, c), plus the bias at b.

  A sum accumulated in eight steps of 512 columns from zero passes through the sums over the initial segments of
  the columns (`acc_zero`, `acc_step`) and ends at the full sum (`acc_full`): addition of extended reals is
  associative and commutative and zero is neutral, so nothing is asked of the terms.
-/
import Idealize.ShloMosaic.PureOps.Ideal
import Idealize.ShloMosaic.PureOps.Ideal.Laws
import Idealize.ShloMosaic.Lib.ValueIdx
import proofs.«181118_j13520557047882_2_alg».proof.Proof.LibSegmentSum

noncomputable section

open scoped BigOperators

namespace Cert.FakeQuant

open Idealize.ShloMosaic Idealize.ShloMosaic.ValueIdx

/-- Fake quantization of one entry `v` with scale `s` and zero point `z` (255 and 0 as their f32 words). -/
def fq (v s z : EReal) : EReal :=
  (min (Ideal.ofBits .f32 0x437F0000#32) (max (Ideal.ofBits .f32 0x00000000#32)
    (Ideal.liftRound Ideal.roundHalfEven (Ideal.div v s + z))) - z) * s

/-- The block of four consecutive columns that column `c` lies in. -/
def blk (c : Fin 4096) : Fin 1024 := ⟨c.val / 4, by have := c.isLt; omega⟩

/-- The product the contraction sums at column `c` for the output entry (a, b): quantized x(a, c) times quantized
    w(b, c). -/
def term (X : (⟨2, ![1024, 4096]⟩ : Shape).Idx → EReal) (W : (⟨2, ![4096, 4096]⟩ : Shape).Idx → EReal)
    (Ws Wz : (⟨2, ![4096, 1024]⟩ : Shape).Idx → EReal) (As Az : (⟨1, ![1024]⟩ : Shape).Idx → EReal)
    (a : Fin 1024) (b : Fin 4096) (c : Fin 4096) : EReal :=
  fq (X (ix2 a c)) (As (ix1 (blk c))) (Az (ix1 (blk c))) * fq (W (ix2 b c)) (Ws (ix2 b (blk c))) (Wz (ix2 b (blk c)))

/-- The layer's output: at (a, b) the sum of the products over all columns, plus the bias at b. -/
def linear (X : (⟨2, ![1024, 4096]⟩ : Shape).Idx → EReal) (W : (⟨2, ![4096, 4096]⟩ : Shape).Idx → EReal)
    (B : (⟨1, ![4096]⟩ : Shape).Idx → EReal)
    (Ws Wz : (⟨2, ![4096, 1024]⟩ : Shape).Idx → EReal) (As Az : (⟨1, ![1024]⟩ : Shape).Idx → EReal) :
    (⟨2, ![1024, 4096]⟩ : Shape).Idx → EReal := fun j =>
  (∑ c : Fin 4096, term X W Ws Wz As Az (j 0) (j 1) c) + B (ix1 (j 1))

/-- Column `512·k + p` of the whole array: column `p` of the `k`-th block of 512 columns. -/
def col (k : ℕ) (hk : k < 8) (p : Fin 512) : Fin 4096 := ⟨512 * k + p.val, by have := p.isLt; omega⟩

/-- The accumulator after the first step: zero plus the first 512 columns' sum is the sum over the first 512. -/
theorem acc_zero (g : Fin 4096 → EReal) :
    (0 : EReal) + ∑ p : Fin 512, g (col 0 (by decide) p) = SegmentSum.segSum g 512 := by
  have h := SegmentSum.segSum_add g 0 512 (by decide)
  rw [SegmentSum.segSum_zero] at h
  exact h.symm

/-- A later step: the sum over the first `512·k` columns plus the `k`-th 512 columns' sum is the sum over the first
    `512·(k+1)`. -/
theorem acc_step (g : Fin 4096 → EReal) (k : ℕ) (hk : k < 8) :
    SegmentSum.segSum g (512 * k) + ∑ p : Fin 512, g (col k hk p) = SegmentSum.segSum g (512 * (k + 1)) := by
  have h := SegmentSum.segSum_add g (512 * k) 512 (by omega)
  have e : 512 * (k + 1) = 512 * k + 512 := by omega
  rw [e]
  exact h.symm

/-- After the eighth step the accumulator holds the full sum. -/
theorem acc_full (g : Fin 4096 → EReal) : SegmentSum.segSum g (512 * (7 + 1)) = ∑ c : Fin 4096, g c :=
  SegmentSum.segSum_all g

end Cert.FakeQuant

end
-- ==== Proof.LibRepeatLast.lean ====
/-
  An array whose last axis is repeated element by element.

  Repeating each entry of the last axis of an [a, n] array r times (what `jnp.repeat(·, r, axis=-1)` becomes inside a
  kernel: a cast [a, n] → [a, n, 1], a broadcast to [a, n, r], a cast to [a, n·r]) gives the array that reads, at
  (p, c), the operand at (p, c / r): column c of the result lies in the run of r copies of column c / r.
-/
import Idealize.ShloMosaic.Lib.Pipeline.Value
import Idealize.ShloMosaic.Lib.ValueIdx

namespace Idealize.ShloMosaic.ValueIdx

open Idealize.ShloMosaic

variable {α : Type}

/-- The quotient of a column of the repeated array by the repeat count is a column of the operand. -/
theorem repeat_col_lt {n r N : ℕ} (hN : N = n * r) (c : Fin N) : c.val / r < n := by
  subst hN
  exact Nat.div_lt_of_lt_mul (lt_of_lt_of_eq c.isLt (Nat.mul_comm n r))

/-- The repeated array at (p, c) is the operand at (p, c / r). -/
theorem repeatLast_apply {a n r N : ℕ} (hN : N = n * r) (hr : 0 < r) (x : (⟨2, ![a, n]⟩ : Shape).Idx → α)
    (h1 : (⟨2, ![a, n]⟩ : Shape).ShapeCasts ⟨3, ![a, n, 1]⟩)
    (h2 : (⟨3, ![a, n, 1]⟩ : Shape).Broadcasts ⟨3, ![a, n, r]⟩)
    (h3 : (⟨3, ![a, n, r]⟩ : Shape).ShapeCasts ⟨2, ![a, N]⟩) (p : Fin a) (c : Fin N) :
    shapeCast ⟨2, ![a, N]⟩ (broadcastTo ⟨3, ![a, n, r]⟩ (shapeCast ⟨3, ![a, n, 1]⟩ x h1) h2) h3 (ix2 p c)
      = x (ix2 p ⟨c.val / r, repeat_col_lt hN c⟩) := by
  have hq : c.val / r < n := repeat_col_lt hN c
  have hs : c.val % r < r := Nat.mod_lt _ hr
  refine (shapeCast_apply _ h3 (ix2 p c) (ix3 p ⟨c.val / r, hq⟩ ⟨c.val % r, hs⟩) ?_).trans
    ((broadcastTo_apply _ h2 (ix3 p ⟨c.val / r, hq⟩ ⟨c.val % r, hs⟩) (ix3 p ⟨c.val / r, hq⟩ (0 : Fin 1)) ?_).trans
      (shapeCast_apply x h1 (ix3 p ⟨c.val / r, hq⟩ (0 : Fin 1)) (ix2 p ⟨c.val / r, hq⟩) ?_))
  · rw [Shape.rowMajor_val_three, Shape.rowMajor_val_two]
    show (p.val * n + c.val / r) * r + c.val % r = p.val * N + c.val
    subst hN
    rw [Nat.add_mul, Nat.mul_assoc, Nat.add_assoc, Nat.div_add_mod']
  · intro ax
    match ax with
    | ⟨0, _⟩ =>
      show p.val = if a = 1 then 0 else p.val
      by_cases h : a = 1
      · rw [if_pos h]; have := p.isLt; omega
      · rw [if_neg h]
    | ⟨1, _⟩ =>
      show c.val / r = if n = 1 then 0 else c.val / r
      by_cases h : n = 1
      · rw [if_pos h]; exact Nat.lt_one_iff.mp (h ▸ hq)
      · rw [if_neg h]
    | ⟨2, _⟩ =>
      show 0 = if (1 : ℕ) = 1 then 0 else c.val % r
      rw [if_pos rfl]
  · rw [Shape.rowMajor_val_two, Shape.rowMajor_val_three]
    show p.val * n + c.val / r = (p.val * n + c.val / r) * 1 + 0
    omega

end Idealize.ShloMosaic.ValueIdx
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.BodyValue.lean ====
/-
  The kernel body's arithmetic, read at one entry on the extended reals.

  One grid point holds a [256, 512] block of x, a [256, 512] block of w, the blocks' scales and zero points with
  one column per four columns of data ([1, 128] for x, [256, 128] for w) and a [1, 256] piece of the bias.  The
  body repeats every scale and zero point four times along the columns, so that column c meets the entry of its
  block c / 4 (`scaleRow_apply`, `scaleMat_apply`); the quantized x block at (p, c) is then `fq` of x(p, c) with
  that scale and zero point (`xq_apply`), and what the body adds to the accumulator at (p, q) is the sum over the 512
  columns c of the quantized x(p, c) times the quantized w(q, c) (`step_apply`): the product with the transposed w
  block into a zero accumulator is that sum, and the change of format before it changes nothing.  The reset stores
  zero (`reset_apply`) and the last step adds the bias of column q (`bias_apply`).
-/
import proofs.«181118_j13520557047882_2_alg».proof.Proof.Gen.KernelIdeal.Skeleton
import proofs.«181118_j13520557047882_2_alg».proof.Proof.FakeQuant
import proofs.«181118_j13520557047882_2_alg».proof.Proof.LibRepeatLast
import proofs.«181118_j13520557047882_2_alg».proof.Proof.LibPlainMatmul
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.FakeQuant

/-- The block of four columns that column `c` of a 512-column block lies in. -/
def sub (c : Fin 512) : Fin 128 := ⟨c.val / 4, by have := c.isLt; omega⟩

/-- A [1, 128] row of per-block values, each repeated four times and the row repeated down 256 rows, reads at
    (p, c) the value of column c's block. -/
theorem scaleRow_apply (x : Vec Ideal S1x128 .f32) (p : Fin 256) (c : Fin 512) :
    broadcastTo S256x512 (shapeCast S1x512 (broadcastTo S1x128x4 (shapeCast S1x128x1
      (shapeCast S1x128 x Facts₀.shapeCasts_S1x128_S1x128) Facts₀.shapeCasts_S1x128_S1x128x1) Facts₀.broadcasts_S1x128x1_S1x128x4)
      Facts₀.shapeCasts_S1x128x4_S1x512) Facts₀.broadcasts_S1x512_S256x512 (ix2 p c)
      = x (ix2 (0 : Fin 1) (sub c)) := by
  rw [shapeCast_self]
  refine (broadcastTo_1b_ab_apply _ _ p c).trans ?_
  exact repeatLast_apply (a := 1) (n := 128) (r := 4) (N := 512) rfl (by decide) x _ _ _ 0 c

/-- A [256, 128] array of per-row, per-block values, each repeated four times along its row, reads at (q, c) the
    value of row q and column c's block. -/
theorem scaleMat_apply (x : Vec Ideal S256x128 .f32) (q : Fin 256) (c : Fin 512) :
    shapeCast S256x512 (broadcastTo S256x128x4 (shapeCast S256x128x1 x Facts₀.shapeCasts_S256x128_S256x128x1)
      Facts₀.broadcasts_S256x128x1_S256x128x4) Facts₀.shapeCasts_S256x128x4_S256x512 (ix2 q c) = x (ix2 q (sub c)) :=
  repeatLast_apply (a := 256) (n := 128) (r := 4) (N := 512) rfl (by decide) x _ _ _ q c

/-- The repeated weight scales (`k0_pay4`) at (q, c). -/
theorem wscale_apply (x5 : Vec Ideal S256x128 .f32) (q : Fin 256) (c : Fin 512) :
    k0_pay4 (F := Ideal) x5 (ix2 q c) = x5 (ix2 q (sub c)) := scaleMat_apply x5 q c

/-- The repeated weight zero points (`k0_pay5`) at (q, c). -/
theorem wzero_apply (x6 : Vec Ideal S256x128 .f32) (q : Fin 256) (c : Fin 512) :
    k0_pay5 (F := Ideal) x6 (ix2 q c) = x6 (ix2 q (sub c)) := scaleMat_apply x6 q c

/-- The quantized x block (`k0_pay6`) at (p, c): `fq` of x(p, c) with the scale and zero point of column c's block. -/
theorem xq_apply (x0 : Vec Ideal S256x512 .f32) (x3 x4 : Vec Ideal S1x128 .f32) (p : Fin 256) (c : Fin 512) :
    k0_pay6 (F := Ideal) x0 x3 x4 (ix2 p c)
      = fq (x0 (ix2 p c)) (x3 (ix2 (0 : Fin 1) (sub c))) (x4 (ix2 (0 : Fin 1) (sub c))) := by
  have e3 := scaleRow_apply x3 p c
  have e4 := scaleRow_apply x4 p c
  unfold fq
  rw [← e3, ← e4]
  rfl

/-- The rounded quotient of the w block (`k0_pay7`) at (q, c). -/
theorem wround_apply (x1 : Vec Ideal S256x512 .f32) (x5 x6 : Vec Ideal S256x128 .f32) (q : Fin 256) (c : Fin 512) :
    k0_pay7 (F := Ideal) x1 x5 x6 (ix2 q c)
      = Ideal.liftRound Ideal.roundHalfEven (Ideal.div (x1 (ix2 q c)) (x5 (ix2 q (sub c))) + x6 (ix2 q (sub c))) := by
  rw [← wscale_apply x5 q c, ← wzero_apply x6 q c]
  rfl

/-- The printed contraction is the plain product of a 256×512 by a 512×256 matrix. -/
theorem dot_plain : dot_S256x512_S512x256_S256x256_1_0_0_1_n_n = DotDims.plain 256 512 256 := rfl

/-- One accumulation step (`k0_pay1`) at (p, q), from the quantized x block `v35`, the w block's rounded quotient
    `v38`, its repeated zero points `v22` and scales `v18`, the clamp's lower bound `lo` and the accumulator `acc`:
    the accumulator's entry plus the sum over the block's columns of the quantized x times the quantized w. -/
theorem pay1_apply (v18 v22 v35 v38 : FVec Ideal S256x512 .f32) (lo : Ideal .f32) (acc : Vec Ideal S256x256 .f32)
    (p q : Fin 256) :
    k0_pay1 (F := Ideal) v18 v22 v35 v38 lo acc (ix2 p q)
      = acc (ix2 p q) + ∑ c : Fin 512, v35 (ix2 p c)
          * ((min (Ideal.ofBits .f32 0x437F0000#32) (max lo (v38 (ix2 q c))) - v22 (ix2 q c)) * v18 (ix2 q c)) := by
  unfold k0_pay1
  refine (congrFun (shapeCast_self _ _) (ix2 p q)).trans ?_
  refine congrArg (acc (ix2 p q) + ·) ?_
  refine (matmul_plain_zero_apply none _ _ p q).trans ?_
  refine Finset.sum_congr rfl fun c _ => ?_
  refine congrArg (v35 (ix2 p c) * ·) ?_
  exact transpose_ix2_apply _ _ c q

/-- One accumulation step over the loaded blocks: at (p, q) the accumulator's entry plus the sum over the block's 512
    columns c of `fq` of x(p, c) times `fq` of w(q, c), each with the scale and zero point of column c's block. -/
theorem step_apply (x0 x1 : Vec Ideal S256x512 .f32) (x3 x4 : Vec Ideal S1x128 .f32) (x5 x6 : Vec Ideal S256x128 .f32)
    (acc : Vec Ideal S256x256 .f32) (p q : Fin 256) :
    k0_pay1 (F := Ideal) (k0_pay4 x5) (k0_pay5 x6) (k0_pay6 x0 x3 x4) (k0_pay7 x1 x5 x6)
        (Scalar.ofBits .f32 0x00000000#32) acc (ix2 p q)
      = acc (ix2 p q) + ∑ c : Fin 512,
          fq (x0 (ix2 p c)) (x3 (ix2 (0 : Fin 1) (sub c))) (x4 (ix2 (0 : Fin 1) (sub c)))
            * fq (x1 (ix2 q c)) (x5 (ix2 q (sub c))) (x6 (ix2 q (sub c))) := by
  refine (pay1_apply _ _ _ _ _ acc p q).trans ?_
  refine congrArg (acc (ix2 p q) + ·) (Finset.sum_congr rfl fun c _ => ?_)
  rw [xq_apply, wround_apply, wscale_apply, wzero_apply]
  rfl

/-- The reset stores zero. -/
theorem reset_apply (p q : Fin 256) : k0_pay3 (F := Ideal) (ix2 p q) = 0 := by
  unfold k0_pay3
  refine (congrFun (shapeCast_self _ _) (ix2 p q)).trans ?_
  exact Ideal.ofBits_zero_f32

/-- The last step's store (`k0_pay2`) at (p, q): the accumulator's entry plus the bias piece's entry at column q. -/
theorem bias_apply (acc : Vec Ideal S256x256 .f32) (b : Vec Ideal S1x256 .f32) (p q : Fin 256) :
    k0_pay2 (F := Ideal) acc b (ix2 p q) = acc (ix2 p q) + b (ix2 (0 : Fin 1) q) := by
  unfold k0_pay2
  rw [shapeCast_self]
  exact congrArg (acc (ix2 p q) + ·) (broadcastTo_1b_ab_apply b _ p q)

end Cert.KernelIdeal.Body

end
-- ==== Proof.Accumulate.lean ====
/-
  The accumulator across a run of eight grid points.

  Fix an entry (p, q) of the output block of point t.  Its row of x is row `rowX t p` of the whole array and its row
  of w is row `rowW t q`; both are the same for the eight points of one run (they differ only in k = t mod 8).  One
  step adds to the accumulator the sum, over the 512 columns of the point's block, of the layer's products for that
  entry (`point_step`: the blocks are rectangles of the arrays, and a scale's column s of block k is the block of
  column 512·k + 4·s).  So after the point with k the accumulator's entry is the sum over the first 512·(k+1) columns
  (`acc_eq`, by induction on the point: zero plus the first block at k = 0, one more block at each later point), and at
  k = 7 it is the sum over all 4096 columns (`acc_last`).
-/
import proofs.«181118_j13520557047882_2_alg».proof.Proof.Blocks
import proofs.«181118_j13520557047882_2_alg».proof.Proof.Pieces
import proofs.«181118_j13520557047882_2_alg».proof.Proof.BodyValue
import proofs.«181118_j13520557047882_2_alg».proof.Proof.FakeQuant

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.FakeQuant Cert.KernelIdeal.Blocks
open Idealize.ShloMosaic.Pipeline (Dat)

variable (m : (ℓ : Loc nD τ sig) → Buf (Elt Ideal) ℓ)

/-- The layer's product at column `cc` for entry (p, q) of point `t`'s output block. -/
def gterm (c : Dev nD) (t : Fin cfg0.N) (p q : Fin 256) : Fin 4096 → EReal :=
  term (m ((c : Thread nD τ).loc main_arg0)) (m ((c : Thread nD τ).loc main_arg1))
    (m ((c : Thread nD τ).loc main_arg3)) (m ((c : Thread nD τ).loc main_arg4))
    (m ((c : Thread nD τ).loc main_arg5)) (m ((c : Thread nD τ).loc main_arg6)) (rowX t p) (rowW t q)

/-- Column s of point `t`'s scale block holds the scale of the block of four that column 4·s of its data block lies
    in. -/
theorem colS_sub (t : Fin cfg0.N) (cc : Fin 512) : colS t (Body.sub cc) = blk (colK t cc) :=
  Fin.ext (by show 128 * (t.val % 8) + cc.val / 4 = (512 * (t.val % 8) + cc.val) / 4; omega)

/-- One step at point `t` adds the layer's products over the point's 512 columns. -/
theorem point_step (c : Dev nD) (t : Fin cfg0.N) (acc : Vec Ideal S256x256 .f32) (p q : Fin 256) :
    Pieces.step (iblk m c 0 t) (iblk m c 1 t) (iblk m c 3 t) (iblk m c 4 t) (iblk m c 5 t) (iblk m c 6 t) acc (ix2 p q)
      = acc (ix2 p q) + ∑ cc : Fin 512, gterm m c t p q (colK t cc) := by
  refine (Body.step_apply (iblk m c 0 t) (iblk m c 1 t) (iblk m c 3 t) (iblk m c 4 t) (iblk m c 5 t) (iblk m c 6 t) acc p q).trans ?_
  refine congrArg (acc (ix2 p q) + ·) (Finset.sum_congr rfl fun cc _ => ?_)
  rw [blk_x m c t p cc, blk_w m c t q cc, blk_as m c t (Body.sub cc), blk_az m c t (Body.sub cc),
    blk_ws m c t q (Body.sub cc), blk_wz m c t q (Body.sub cc), colS_sub]
  rfl

/-- Within a run the entry's rows of x and w do not move. -/
theorem gterm_prev (c : Dev nD) (n : ℕ) (h : n + 1 < cfg0.N) (h0 : ¬(n + 1) % 8 = 0) (p q : Fin 256) :
    gterm m c ⟨n, Nat.lt_of_succ_lt h⟩ p q = gterm m c ⟨n + 1, h⟩ p q := by
  have e1 : rowX ⟨n, Nat.lt_of_succ_lt h⟩ p = rowX ⟨n + 1, h⟩ p :=
    Fin.ext (by show 256 * (n / 128) + p.val = 256 * ((n + 1) / 128) + p.val; omega)
  have e2 : rowW ⟨n, Nat.lt_of_succ_lt h⟩ q = rowW ⟨n + 1, h⟩ q :=
    Fin.ext (by show 256 * (n / 8 % 16) + q.val = 256 * ((n + 1) / 8 % 16) + q.val; omega)
  unfold gterm
  rw [e1, e2]

/-- At the first point of a run the accumulator's entry is the sum over the first 512 columns. -/
theorem acc_A (c : Dev nD) (t : Fin cfg0.N) (h0 : t.val % 8 = 0) (h1 : ¬t.val % 8 = 7) (p q : Fin 256) :
    (outsAt0 m c t.val t.isLt).2 (ix2 p q) = SegmentSum.segSum (gterm m c t p q) (512 * (t.val % 8 + 1)) := by
  rw [outsAt0_A m c t h0 h1]
  dsimp only
  rw [Pieces.sout_A]
  refine (point_step m c t _ p q).trans ?_
  rw [Body.reset_apply, h0]
  have e : ∀ cc, colK t cc = col 0 (by decide) cc := fun cc =>
    Fin.ext (by show 512 * (t.val % 8) + cc.val = 512 * 0 + cc.val; rw [h0])
  simp only [e]
  exact acc_zero _

/-- After the point with k = n mod 8 the accumulator's entry is the sum over the first 512·(k+1) columns. -/
theorem acc_eq (c : Dev nD) : ∀ (n : ℕ) (h : n < cfg0.N) (p q : Fin 256),
    (outsAt0 m c n h).2 (ix2 p q) = SegmentSum.segSum (gterm m c ⟨n, h⟩ p q) (512 * (n % 8 + 1))
  | 0, h, p, q => acc_A m c ⟨0, h⟩ rfl (by show ¬(0 : ℕ) % 8 = 7; decide) p q
  | n + 1, h, p, q => by
    have hN : n + 1 < 512 := lt_of_lt_of_eq h (show cfg0.N = 512 from N_0)
    by_cases h0 : (n + 1) % 8 = 0
    · exact acc_A m c ⟨n + 1, h⟩ h0 (by show ¬(n + 1) % 8 = 7; omega) p q
    · have ih := acc_eq c n (Nat.lt_of_succ_lt h) p q
      have hg := gterm_prev m c n h h0 p q
      have hk : n % 8 + 1 = (n + 1) % 8 := by omega
      have key : Pieces.step (iblk m c 0 ⟨n + 1, h⟩) (iblk m c 1 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2 (ix2 p q)
          = SegmentSum.segSum (gterm m c ⟨n + 1, h⟩ p q) (512 * ((n + 1) % 8 + 1)) := by
        refine (point_step m c ⟨n + 1, h⟩ _ p q).trans ?_
        rw [ih, hg, hk]
        exact acc_step _ ((n + 1) % 8) (by omega)
      by_cases h1 : (n + 1) % 8 = 7
      · rw [outsAt0_C m c ⟨n + 1, h⟩ h0 h1]
        dsimp only
        rw [Pieces.sout_C]
        exact key
      · rw [outsAt0_B m c ⟨n + 1, h⟩ h0 h1]
        dsimp only
        rw [Pieces.sout_B]
        exact key

/-- At the last point of a run the step's result, over what the point before left, is the sum over all 4096 columns. -/
theorem acc_last (c : Dev nD) (t : Fin cfg0.N) (h0 : ¬t.val % 8 = 0) (h1 : t.val % 8 = 7) (p q : Fin 256) :
    Pieces.step (iblk m c 0 t) (iblk m c 1 t) (iblk m c 3 t) (iblk m c 4 t) (iblk m c 5 t) (iblk m c 6 t)
      (outsAt0 m c (t.val - 1) (Nat.lt_of_le_of_lt (Nat.sub_le _ _) t.isLt)).2 (ix2 p q)
      = ∑ cc : Fin 4096, gterm m c t p q cc := by
  have h := acc_eq m c t.val t.isLt p q
  rw [outsAt0_C m c t h0 h1] at h
  dsimp only at h
  rw [Pieces.sout_C] at h
  rw [h, h1]
  exact acc_full _

end Cert.KernelIdeal.Acc

end
-- ==== Proof.KernelValue.lean ====
/-
  What the kernel's result array holds after the run: the quantized linear layer of the argument arrays.

  The output block of a run of eight points is written back once, at the run's last point (k = 7), and holds there
  the accumulator — by then the sum of the layer's products over all 4096 columns — plus the bias of its columns:
  the layer's output at the block's rows and columns (`block_eq`).  The 4 × 16 output blocks of 256 × 256 tile the
  [1024, 4096] array (entry (r, s) lies in the block of the run i = r / 256, j = s / 256), so the array ends holding
  the layer's output (`final`), and the run is re-posted at it (`run`).
-/
import proofs.«181118_j13520557047882_2_alg».proof.Proof.Accumulate
import proofs.«181118_j13520557047882_2_alg».proof.Proof.Gen.KernelIdeal.Value

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.FakeQuant Cert.KernelIdeal.Blocks Cert.KernelIdeal.Acc
open Idealize.ShloMosaic.Pipeline (Dat)

variable (m : (ℓ : Loc nD τ sig) → Buf (Elt Ideal) ℓ) (ρ : Dev nD → PrngReg)

/-- The layer's output of the argument arrays as the kernel is launched with them. -/
abbrev result (c : Dev nD) : Buf (Elt Ideal) ((c : Thread nD τ).loc main_v3) :=
  linear (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

/-- The output block of the run that ends at point `t`: the layer's output at the block's rows and columns. -/
def blockOf (c : Dev nD) (t : Fin cfg0.N) : Vec Ideal S256x256 .f32 :=
  fun y => result m c (ix2 (rowX t (y 0)) (rowW t (y 1)))

/-- At the last point of a run the body stores that block. -/
theorem block_eq (c : Dev nD) (t : Fin cfg0.N) (h0 : ¬t.val % 8 = 0) (h1 : t.val % 8 = 7) :
    k0_pay2 (Pieces.step (iblk m c 0 t) (iblk m c 1 t) (iblk m c 3 t) (iblk m c 4 t) (iblk m c 5 t) (iblk m c 6 t)
      (outsAt0 m c (t.val - 1) (Nat.lt_of_le_of_lt (Nat.sub_le _ _) t.isLt)).2) (iblk m c 2 t) = blockOf m c t := by
  funext y
  obtain ⟨p, q, rfl⟩ : ∃ (p q : Fin 256), y = ix2 p q := ⟨y 0, y 1, eq_ix2 y⟩
  refine (Body.bias_apply _ (iblk m c 2 t) p q).trans ?_
  rw [acc_last m c t h0 h1 p q, blk_bias m c t q]
  rfl

/-- The printed index map of the output window in closed form. -/
theorem idx_out (t : Fin cfg0.N) :
    win0_7.index t (0 : Fin 2) = t.val / 128 ∧ win0_7.index t (1 : Fin 2) = t.val / 8 % 16 := by
  obtain ⟨-, -, -, -, -, -, -, -, -, -, -, -, -, -, e0, e1⟩ := idx_facts t
  exact ⟨e0, e1⟩

/-- What the last point of a run writes back is its block of the layer's output. -/
theorem flushed_eq (c : Dev nD) (t : Fin cfg0.N) (hf : (cfg0.win 7).flush t = true) :
    (dats m 0 c).flushed 7 t = ((cfg0.win 7).blk t).view.read (Elt Ideal) (result m c) := by
  have h1 : t.val % 8 = 7 := (flush0_7 t).mp hf
  have h0 : ¬t.val % 8 = 0 := by omega
  obtain ⟨e0, e1⟩ := idx_out t
  rw [Value.flushed7_C m c t h0 h1, Pieces.out_C, block_eq m c t h0 h1]
  funext j
  show result m c (ix2 (rowX t (j 0)) (rowW t (j 1))) = result m c (((cfg0.win 7).blk t).view.emb j)
  refine congrArg _ (funext fun a => Fin.ext ?_)
  match a with
  | ⟨0, _⟩ => show 256 * (t.val / 128) + (j 0).val = win0_7.index t (0 : Fin 2) * 256 + 1 * (j 0).val; rw [e0]; omega
  | ⟨1, _⟩ => show 256 * (t.val / 8 % 16) + (j 1).val = win0_7.index t (1 : Fin 2) * 256 + 1 * (j 1).val; rw [e1]; omega

/-- An entry of the array is in point `t`'s output block iff each coordinate is in the block's range. -/
theorem mem_blk (t : Fin cfg0.N) (i : S1024x4096.Idx) :
    i ∈ ((cfg0.win 7).blk t).view.set ↔ ∀ a : Fin 2, win0_7.index t a * S256x256.size a ≤ (i a).val
      ∧ (i a).val < win0_7.index t a * S256x256.size a + S256x256.size a := by
  show i ∈ ((View.whole main_v3).slice (win0_7.rect t)).set ↔ _
  rw [View.set_slice_whole, Rect.mem_set_unit]
  exact Iff.rfl

/-- Every entry of the array lies in the block some run writes back. -/
theorem cover (i : S1024x4096.Idx) :
    ∃ t : Fin cfg0.N, (cfg0.win 7).flush t = true ∧ i ∈ ((cfg0.win 7).blk t).view.set := by
  have hi0 : (i 0).val < 1024 := (i 0).isLt
  have hi1 : (i 1).val < 4096 := (i 1).isLt
  have hlt : ((i 0).val / 256 * 16 + (i 1).val / 256) * 8 + 7 < cfg0.N := by
    rw [show cfg0.N = 512 from N_0]; omega
  refine ⟨⟨((i 0).val / 256 * 16 + (i 1).val / 256) * 8 + 7, hlt⟩, (flush0_7 _).mpr (by show (((i 0).val / 256 * 16 + (i 1).val / 256) * 8 + 7) % 8 = 7; omega), ?_⟩
  obtain ⟨e0, e1⟩ := idx_out ⟨((i 0).val / 256 * 16 + (i 1).val / 256) * 8 + 7, hlt⟩
  rw [mem_blk]
  intro a
  match a with
  | ⟨0, _⟩ =>
    show win0_7.index _ (0 : Fin 2) * 256 ≤ (i 0).val ∧ (i 0).val < win0_7.index _ (0 : Fin 2) * 256 + 256
    rw [e0]
    show (((i 0).val / 256 * 16 + (i 1).val / 256) * 8 + 7) / 128 * 256 ≤ (i 0).val
      ∧ (i 0).val < (((i 0).val / 256 * 16 + (i 1).val / 256) * 8 + 7) / 128 * 256 + 256
    omega
  | ⟨1, _⟩ =>
    show win0_7.index _ (1 : Fin 2) * 256 ≤ (i 1).val ∧ (i 1).val < win0_7.index _ (1 : Fin 2) * 256 + 256
    rw [e1]
    show (((i 0).val / 256 * 16 + (i 1).val / 256) * 8 + 7) / 8 % 16 * 256 ≤ (i 1).val
      ∧ (i 1).val < (((i 0).val / 256 * 16 + (i 1).val / 256) * 8 + 7) / 8 % 16 * 256 + 256
    omega

/-- The result array after the run is the layer's output. -/
theorem final (c : Dev nD) : (dats m 0 c).arrAt 7 cfg0.N = result m c :=
  (dats m 0 c).arrAt_eq_of_cover 7 (result m c) (flushed_eq m c) cover

/-- The run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.RefValue.lean ====
/-
  The reference's result is the quantized linear layer.

  The reference reshapes x to [1024, 1024, 4] (row a, block, position in the block), broadcasts the per-block scale
  and zero point over rows and positions, fake-quantizes entry by entry and reshapes back: entry (a, c) of the
  quantized x is `fq` of x(a, c) with the scale and zero point of block c / 4 (`xq_ref`).  The weights likewise with
  per-row scales and zero points, then transposed: entry (c, b) of the transposed quantized w is `fq` of w(b, c)
  (`wq_ref`).  The product contracts the columns and the bias is added along the rows: `linear` (`result_eq`).
-/
import proofs.«181118_j13520557047882_2_alg».proof.Proof.Gen.ReferenceIdeal.Read
import proofs.«181118_j13520557047882_2_alg».proof.Proof.FakeQuant

noncomputable section

open scoped BigOperators

namespace Cert.ReferenceIdeal.RefValue

open Cert.ReferenceIdeal Cert.ReferenceIdeal.Gen Cert.ReferenceIdeal.Read Idealize.ShloMosaic Idealize.ShloMosaic.ValueIdx
open Cert.FakeQuant

/-- The reference's quantized activations at (a, c). -/
theorem xq_ref (x0 : (⟨S1024x4096, .f32⟩ : BufTy).Contents (Elt Ideal)) (x5 x6 : (⟨S1024, .f32⟩ : BufTy).Contents (Elt Ideal))
    (a : Fin 1024) (c : Fin 4096) :
    val_main_v13 (F := Ideal) x0 x5 x6 (ix2 a c) = fq (x0 (ix2 a c)) (x5 (ix1 (blk c))) (x6 (ix1 (blk c))) := by
  have ha := a.isLt
  have hc := c.isLt
  have e0 : idx_main_v0 (idx_main_v13 (ix2 a c)) = ix2 a c := funext fun d => Fin.ext (by
    match d with
    | ⟨0, _⟩ => show ((((a.val * 4096 + c.val) / 4096) * 1024 + (a.val * 4096 + c.val) / 4 % 1024) * 4 + (a.val * 4096 + c.val) % 4) / 4096 = a.val; omega
    | ⟨1, _⟩ => show ((((a.val * 4096 + c.val) / 4096) * 1024 + (a.val * 4096 + c.val) / 4 % 1024) * 4 + (a.val * 4096 + c.val) % 4) % 4096 = c.val; omega)
  have e3 : idx_main_v1 (idx_main_v3 (idx_main_v13 (ix2 a c))) = ix1 (blk c) := funext fun d => Fin.ext (by
    match d with
    | ⟨0, _⟩ => show (a.val * 4096 + c.val) / 4 % 1024 = c.val / 4; omega)
  have e5 : idx_main_v2 (idx_main_v5 (idx_main_v13 (ix2 a c))) = ix1 (blk c) := funext fun d => Fin.ext (by
    match d with
    | ⟨0, _⟩ => show (a.val * 4096 + c.val) / 4 % 1024 = c.val / 4; omega)
  rw [val_main_v13_apply, val_main_v12_apply, val_main_v10_apply, val_main_v11_apply, val_main_v1_apply,
    val_main_v9_apply, val_main_v2_apply, val_main_v8_apply, val_main_call1_v4_apply, val_main_call1_v3_apply,
    val_main_cst_0_apply, val_main_call1_v2_apply, val_main_call1_v1_apply, val_main_call1_v0_apply, val_main_cst_apply,
    val_main_v7_apply, val_main_v6_apply, val_main_v5_apply, val_main_v2_apply, val_main_v4_apply, val_main_v3_apply,
    val_main_v1_apply, val_main_v0_apply, e0, e3, e5]
  rfl

/-- The reference's transposed quantized weights at (c, b). -/
theorem wq_ref (x1 : (⟨S4096x4096, .f32⟩ : BufTy).Contents (Elt Ideal)) (x3 x4 : (⟨S4096x1024, .f32⟩ : BufTy).Contents (Elt Ideal))
    (c b : Fin 4096) :
    val_main_v28 (F := Ideal) x1 x3 x4 (ix2 c b) = fq (x1 (ix2 b c)) (x3 (ix2 b (blk c))) (x4 (ix2 b (blk c))) := by
  have hb := b.isLt
  have hc := c.isLt
  have et : idx_main_v28 (ix2 c b) = ix2 b c := funext fun d => Fin.ext (by
    match d with
    | ⟨0, _⟩ => rfl
    | ⟨1, _⟩ => rfl)
  have e0 : idx_main_v14 (idx_main_v27 (ix2 b c)) = ix2 b c := funext fun d => Fin.ext (by
    match d with
    | ⟨0, _⟩ => show ((((b.val * 4096 + c.val) / 4096) * 1024 + (b.val * 4096 + c.val) / 4 % 1024) * 4 + (b.val * 4096 + c.val) % 4) / 4096 = b.val; omega
    | ⟨1, _⟩ => show ((((b.val * 4096 + c.val) / 4096) * 1024 + (b.val * 4096 + c.val) / 4 % 1024) * 4 + (b.val * 4096 + c.val) % 4) % 4096 = c.val; omega)
  have e17 : idx_main_v15 (idx_main_v17 (idx_main_v27 (ix2 b c))) = ix2 b (blk c) := funext fun d => Fin.ext (by
    match d with
    | ⟨0, _⟩ => show (b.val * 4096 + c.val) / 4096 = b.val; omega
    | ⟨1, _⟩ => show (b.val * 4096 + c.val) / 4 % 1024 = c.val / 4; omega)
  have e19 : idx_main_v16 (idx_main_v19 (idx_main_v27 (ix2 b c))) = ix2 b (blk c) := funext fun d => Fin.ext (by
    match d with
    | ⟨0, _⟩ => show (b.val * 4096 + c.val) / 4096 = b.val; omega
    | ⟨1, _⟩ => show (b.val * 4096 + c.val) / 4 % 1024 = c.val / 4; omega)
  rw [val_main_v28_apply, et, val_main_v27_apply, val_main_v26_apply, val_main_v24_apply, val_main_v25_apply,
    val_main_v15_apply, val_main_v23_apply, val_main_v16_apply, val_main_v22_apply, val_main_call3_v4_apply,
    val_main_call3_v3_apply, val_main_cst_2_apply, val_main_call3_v2_apply, val_main_call3_v1_apply,
    val_main_call3_v0_apply, val_main_cst_1_apply, val_main_v21_apply, val_main_v20_apply, val_main_v19_apply,
    val_main_v16_apply, val_main_v18_apply, val_main_v17_apply, val_main_v15_apply, val_main_v14_apply,
    e0, e17, e19]
  rfl

/-- The reference's result is the layer's output. -/
theorem result_eq (x0 : (⟨S1024x4096, .f32⟩ : BufTy).Contents (Elt Ideal)) (x1 : (⟨S4096x4096, .f32⟩ : BufTy).Contents (Elt Ideal))
    (x2 : (⟨S4096, .f32⟩ : BufTy).Contents (Elt Ideal)) (x3 x4 : (⟨S4096x1024, .f32⟩ : BufTy).Contents (Elt Ideal))
    (x5 x6 : (⟨S1024, .f32⟩ : BufTy).Contents (Elt Ideal)) :
    val_main_v32 (F := Ideal) x0 x1 x2 x3 x4 x5 x6 = linear x0 x1 x2 x3 x4 x5 x6 := by
  funext i
  obtain ⟨a, b, rfl⟩ : ∃ (a : Fin 1024) (b : Fin 4096), i = ix2 a b := ⟨i 0, i 1, eq_ix2 i⟩
  have eb : idx_main_v30 (idx_main_v31 (ix2 a b)) = ix1 b := funext fun d => Fin.ext (by
    match d with
    | ⟨0, _⟩ => rfl)
  rw [val_main_v32_apply, val_main_v29_apply, val_main_v31_apply, val_main_v30_apply, eb]
  show (∑ k : Fin 4096, val_main_v13 (F := Ideal) x0 x5 x6 (lidx_main_v29 (ix2 a b) k)
      * val_main_v28 (F := Ideal) x1 x3 x4 (ridx_main_v29 (ix2 a b) k)) + x2 (ix1 b)
    = (∑ c : Fin 4096, term x0 x1 x3 x4 x5 x6 a b c) + x2 (ix1 b)
  refine congrArg (· + x2 (ix1 b)) (Finset.sum_congr rfl fun k _ => ?_)
  have el : lidx_main_v29 (ix2 a b) k = ix2 a k := funext fun d => Fin.ext (by
    match d with
    | ⟨0, _⟩ => rfl
    | ⟨1, _⟩ => rfl)
  have er : ridx_main_v29 (ix2 a b) k = ix2 k b := funext fun d => Fin.ext (by
    match d with
    | ⟨0, _⟩ => rfl
    | ⟨1, _⟩ => rfl)
  rw [el, er, xq_ref, wq_ref]
  rfl

end Cert.ReferenceIdeal.RefValue

end
-- ==== Proof.lean ====
/-
  A linear layer whose activations and weights are fake-quantized in blocks of four columns, as a tiled kernel and as
  a plain array program: at exact (extended-real) values both compute

      out(a, b) = ∑_c fq(x(a, c), as(c / 4), az(c / 4)) · fq(w(b, c), ws(b, c / 4), wz(b, c / 4)) + bias(b),

  where fq(v, s, z) = (min 255 (max 0 (round (v / s + z))) - z) · s, `round` to the nearest integer with ties to even.

  The kernel walks a 4 × 16 × 8 grid: for each 256 × 256 output block it accumulates, over eight steps of 512
  columns, the product of the quantized x block with the transposed quantized w block, starting from zero, and adds
  the bias after the last step.  It repeats each block's scale and zero point four times along the columns where
  the array program reshapes the data to [rows, blocks, 4] and broadcasts them; both read, at column c, the entry of
  block c / 4.  The kernel rounds both factors to a shorter float format before the product, which is the identity at
  exact values.  The two results differ only in how the sum over the 4096 columns is grouped — eight partial sums
  added to zero in order, against one sum — and addition of extended reals is associative and commutative with zero
  neutral, so they are equal whatever the inputs hold; the precondition is not used.

  The division, the rounding, the clamp and the products are the same operations on both sides, entry by entry
  (`Body`, `RefValue`); `Acc` carries the partial sums through a run of eight grid points, `Result` reads the output
  array block by block.  The three programs' runs terminate with the arguments unchanged by the generated frames
  and the generated run of the array program; the kernel's idealization rewrote nothing.
-/
import proofs.«181118_j13520557047882_2_alg».proof.Defs
import proofs.«181118_j13520557047882_2_alg».proof.Proof.Gen.Kernel
import proofs.«181118_j13520557047882_2_alg».proof.Proof.Gen.Kernel.Skeleton
import proofs.«181118_j13520557047882_2_alg».proof.Proof.Gen.Kernel.Launch
import proofs.«181118_j13520557047882_2_alg».proof.Proof.Gen.Kernel.Points
import proofs.«181118_j13520557047882_2_alg».proof.Proof.Gen.Kernel.Frame
import proofs.«181118_j13520557047882_2_alg».proof.Proof.Gen.KernelIdeal
import proofs.«181118_j13520557047882_2_alg».proof.Proof.Gen.KernelIdeal.Skeleton
import proofs.«181118_j13520557047882_2_alg».proof.Proof.Gen.KernelIdeal.Launch
import proofs.«181118_j13520557047882_2_alg».proof.Proof.Gen.KernelIdeal.Points
import proofs.«181118_j13520557047882_2_alg».proof.Proof.Gen.KernelIdeal.Frame
import proofs.«181118_j13520557047882_2_alg».proof.Proof.Gen.ReferenceIdeal
import proofs.«181118_j13520557047882_2_alg».proof.Proof.Gen.Pre_finite_inputs
import proofs.«181118_j13520557047882_2_alg».proof.Proof.Gen.KernelIdeal.Value
import proofs.«181118_j13520557047882_2_alg».proof.Proof.Gen.ReferenceIdeal.Run
import proofs.«181118_j13520557047882_2_alg».proof.Proof.Gen.ReferenceIdeal.Read
import proofs.«181118_j13520557047882_2_alg».proof.Proof.KernelValue
import proofs.«181118_j13520557047882_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments as they were. -/
theorem frame_k : Cert.frame_Kernel := fun m ρ _ => Cert.Kernel.Gen.frame m ρ

/-- So does the kernel read at exact values. -/
theorem frame_ki : Cert.frame_KernelIdeal := fun m ρ _ => Cert.KernelIdeal.Gen.frame m ρ

/-- The array program's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel at exact values rewrote none of its operations. -/
theorem preserves : Cert.preserves_Kernel_KernelIdeal := trivial

/-- From arguments that agree, the kernel's result array and the array program's result both end at the layer's
    output of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
